-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x512x32x32 .f32) (main_arg1 : FVec F S32x512 .f32) (main_arg2 : FVec F S32 .f32) (main_arg3 : FVec F S512x32 .f32) (main_arg4 : FVec F S512 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S64x512x32x32 : Shape := ⟨4, ![64, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S64x32x32x512 : Shape := ⟨4, ![64, 32, 32, 512]⟩
abbrev S64x1024x512 : Shape := ⟨3, ![64, 1024, 512]⟩
abbrev S1x32 : Shape := ⟨2, ![1, 32]⟩
abbrev S1x512 : Shape := ⟨2, ![1, 512]⟩
abbrev S64x512 : Shape := ⟨2, ![64, 512]⟩
abbrev S8x1024x512 : Shape := ⟨3, ![8, 1024, 512]⟩
abbrev S8x512 : Shape := ⟨2, ![8, 512]⟩
abbrev S8x32 : Shape := ⟨2, ![8, 32]⟩
abbrev S64x512x1x1 : Shape := ⟨4, ![64, 512, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S64x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S64x32x32x512, .f32⟩
  | .hbm, ⟨6, _⟩ => ⟨S64x1024x512, .f32⟩
  | .hbm, ⟨7, _⟩ => ⟨S32x512, .f32⟩
  | .hbm, ⟨8, _⟩ => ⟨S1x32, .f32⟩
  | .hbm, ⟨9, _⟩ => ⟨S1x512, .f32⟩
  | .hbm, ⟨10, _⟩ => ⟨S64x512, .f32⟩
  | .hbm, ⟨11, _⟩ => ⟨S64x512x1x1, .f32⟩
  | .local _ .vmem, ⟨0, _⟩ => ⟨S8x1024x512, .f32⟩
  | .local _ .vmem, ⟨1, _⟩ => ⟨S8x1024x512, .f32⟩
  | .local _ .vmem, ⟨2, _⟩ => ⟨S32x512, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S64x512x32x32_S64x32x32x512_0_2_3_1 : S64x512x32x32.Transposes [0, 2, 3, 1] S64x32x32x512
  shapeCasts_S64x32x32x512_S64x1024x512 : S64x32x32x512.ShapeCasts S64x1024x512
  transposes_S512x32_S32x512_1_0 : S512x32.Transposes [1, 0] S32x512
  shapeCasts_S32_S1x32 : S32.ShapeCasts S1x32
  shapeCasts_S512_S1x512 : S512.ShapeCasts S1x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x1024x512_S8x1024x512_0_0_0 : ∀ a, (![0, 0, 0] : Fin 3 → Nat) a + S8x1024x512.size a ≤ S8x1024x512.size a
  h_S8x1024x512 : 0 < S8x1024x512.numel
  shapeCasts_S8x1024x512_S8x1024x512 : S8x1024x512.ShapeCasts S8x1024x512
  reduces_S8x1024x512_S8x512 : S8x1024x512.Reduces [1] S8x512
  inb_S32x512_S32x512_0_0 : ∀ a, (![0, 0] : Fin 2 → Nat) a + S32x512.size a ≤ S32x512.size a
  h_S32x512 : 0 < S32x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  bcast_S64x512_S64x512x1x1_0_1 : S64x512.BroadcastsInDim S64x512x1x1 (![0, 1] : Fin 2 → Fin S64x512x1x1.rank)
  dot_S8x512_S32x512_S8x32_1_1_0_0_n_n_wf : DotDims.WF S8x512 S32x512 S8x32 [1] [1] [0] [0] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x512.size a ≤ S64x1024x512.size a
  hwx0_0 : ∀ i : grid0.Coords, EltTy.bits .f32 = 32 ∨ (Rect.block (s := S64x1024x512) S8x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S64x512.size a
  hwx0_5 : ∀ i : grid0.Coords, EltTy.bits .f32 = 32 ∨ (Rect.block (s := S64x512) S8x512.size (cc0_transform_5 i) (hinb0_5 i)).WholeWords (EltTy.packing .f32)

variable [Facts₀]

def dot_S8x512_S32x512_S8x32_1_1_0_0_n_n : DotDims S8x512 S32x512 S8x32 where
  lhsContracting := [1]
  rhsContracting := [1]
  lhsNonContracting := [0]
  rhsNonContracting := [0]
  lhsBatch := []
  rhsBatch := []
  wf := dot_S8x512_S32x512_S8x32_1_1_0_0_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v1) S8x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x512x32x32 : Shape := ⟨4, ![64, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S64x32x32x512 : Shape := ⟨4, ![64, 32, 32, 512]⟩
abbrev S64x1024x512 : Shape := ⟨3, ![64, 1024, 512]⟩
abbrev S_ : Shape := ⟨0, ![]⟩
abbrev S1x32 : Shape := ⟨2, ![1, 32]⟩
abbrev S1x512 : Shape := ⟨2, ![1, 512]⟩
abbrev S64x512 : Shape := ⟨2, ![64, 512]⟩
abbrev S8x512x512 : Shape := ⟨3, ![8, 512, 512]⟩
abbrev S8x512 : Shape := ⟨2, ![8, 512]⟩
abbrev S8x32 : Shape := ⟨2, ![8, 32]⟩
abbrev S64x512x1x1 : Shape := ⟨4, ![64, 512, 1, 1]⟩

abbrev nBuf : Space → Nat
  | .hbm => 16
  | .vmem => 9
  | .smem => 0
  | _ => 0

abbrev bufTy : (tb : Table) → Fin (tcTables nBuf tb) → BufTy
  | .hbm, ⟨0, _⟩ => ⟨S64x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S64x32x32x512, .f32⟩
  | .hbm, ⟨6, _⟩ => ⟨S64x1024x512, .f32⟩
  | .hbm, ⟨7, _⟩ => ⟨S512x32, .f32⟩
  | .hbm, ⟨8, _⟩ => ⟨S_, .f32⟩
  | .hbm, ⟨9, _⟩ => ⟨S512x32, .f32⟩
  | .hbm, ⟨10, _⟩ => ⟨S512x32, .f32⟩
  | .hbm, ⟨11, _⟩ => ⟨S32x512, .f32⟩
  | .hbm, ⟨12, _⟩ => ⟨S1x32, .f32⟩
  | .hbm, ⟨13, _⟩ => ⟨S1x512, .f32⟩
  | .hbm, ⟨14, _⟩ => ⟨S64x512, .f32⟩
  | .hbm, ⟨15, _⟩ => ⟨S64x512x1x1, .f32⟩
  | .local _ .vmem, ⟨0, _⟩ => ⟨S8x512x512, .f32⟩
  | .local _ .vmem, ⟨1, _⟩ => ⟨S8x512x512, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S64x512x32x32_S64x32x32x512_0_2_3_1 : S64x512x32x32.Transposes [0, 2, 3, 1] S64x32x32x512
  shapeCasts_S64x32x32x512_S64x1024x512 : S64x32x32x512.ShapeCasts S64x1024x512
  transposes_S32x512_S512x32_1_0 : S32x512.Transposes [1, 0] S512x32
  bcast_S_S512x32 : S_.BroadcastsInDim S512x32 (![] : Fin 0 → Fin S512x32.rank)
  transposes_S512x32_S32x512_1_0 : S512x32.Transposes [1, 0] S32x512
  shapeCasts_S32_S1x32 : S32.ShapeCasts S1x32
  shapeCasts_S512_S1x512 : S512.ShapeCasts S1x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  reduces_S8x512x512_S8x512 : S8x512x512.Reduces [1] S8x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  shapeCasts_S64x512_S64x512x1x1 : S64x512.ShapeCasts S64x512x1x1
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x1024x512.size a
  hwx0_0 : ∀ i : grid0.Coords, EltTy.bits .f32 = 32 ∨ (Rect.block (s := S64x1024x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S64x512.size a
  hwx0_5 : ∀ i : grid0.Coords, EltTy.bits .f32 = 32 ∨ (Rect.block (s := S64x512) S8x512.size (cc0_transform_5 i) (hinb0_5 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v1) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.LibReadBack.lean ====
/-
  Reading back what a whole store left.

  A buffer of shape S is stored WHOLE (through the rectangle at zero offsets with S's own sizes) and then loaded
  whole. Whatever was stored before — any list of earlier pieces — the load reads the LAST store's payload: the last
  whole store covers every index, so the earlier pieces are invisible. This is the read of a running accumulator that
  was first zeroed and then overwritten by the updated sum.
-/
import Idealize.ShloMosaic.Lib.Pipeline.Value

noncomputable section

namespace Cert.Lib

open Idealize.ShloMosaic

/-- A whole load, after a whole store of `w` that came LAST (earlier pieces `L` arbitrary), reads `w`. -/
theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.Lib

end
-- ==== Proof.KernelBody.lean ====
/-
  What one grid step of the fused kernel leaves in its output block.

  The grid is 8 × 1: every step is at once the first and the last of its image tile's spatial axis. So the step zeroes
  the running sum, adds the tile's spatial sum to it, and at once computes the gate from it. Read back, the output
  block is the gate's arithmetic applied to (zero block + spatial sum of the tile): the accumulator's two loads read
  what the step itself stored just before.
-/
import proofs.«116428_g2000103900817249_pallaspilot1_116_34_alg».proof.Proof.Gen.KernelIdeal.Frame
import proofs.«116428_g2000103900817249_pallaspilot1_116_34_alg».proof.Proof.LibReadBack
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The output block after a step: the gate arithmetic of the zeroed-then-updated running sum and the resident
    weight blocks. -/
theorem out_step (c : Dev nD) (i : grid0.Coords) (arg2 : Memref sig .tc .vmem S8x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i)
    (x0 : Vec F S8x1024x512 .f32) (x1 : Vec F S32x512 .f32) (x2 : Vec F S1x32 .f32) (x3 : Vec F S32x512 .f32) (x4 : Vec F S1x512 .f32) :
    out0_A_5 c i arg2 harg2 arg3 harg3 arg4 harg4 arg5 harg5 arg6 harg6 arg7 harg7 arg8 harg8 hc0 hc1 x0 x1 x2 x3 x4
      = k0_pay3 (k0_pay2 (k0_pay1 (F := F)) x0) x1 x2 x3 x4 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero zeros2, Cert.Lib.readCov_cons_unit_zero _ zeros2, View.readCov_unit_zero _ zeros2]
  simp only [View.readAt_eq_ld, harg2.read_unread, harg3.read_unread, harg4.read_unread, harg5.read_unread,
    harg6.read_unread, View.ld_unit_zero (S := S8x1024x512) zeros3, View.ld_unit_zero (S := S32x512) zeros2,
    View.ld_unit_zero (S := S1x32) zeros2, View.ld_unit_zero (S := S1x512) zeros2]

end Cert.KernelIdeal.Body

end
-- ==== Proof.Gate.lean ====
/-
  The squeeze-and-excitation gate, on the extended reals.

  For one image, the gate of channel c is
      σ( Σ_j max(h_j + b1_j, 0) · w2_{j,c} + b2_c ),
  where h_j is the first linear layer applied to the spatial MEAN of the image, one value per channel.
  Two spellings of h_j meet here.

  * `hiddenMean`: the spatial sum of a channel over all 1024 positions, started from zero, times the constant
    2⁻¹⁰, then contracted with the weights: Σ_k ((0 + Σ_{p<1024} x_{p,k}) · 2⁻¹⁰) · w1_{j,k}.
  * `hiddenScaled`: the spatial sum taken in two halves of 512 positions, the second half added to the first,
    contracted with weights that were divided by 1024 beforehand:
    Σ_k ((0 + Σ_{p<512} x_{p,k}) + Σ_{p<512} x_{512+p,k}) · (w1_{j,k} / 1024).

  They are equal on ALL extended reals: 2⁻¹⁰ is exactly 1/1024, a quotient by the real 1024 is the product with
  1/1024, a sum over 1024 positions is the sum of its halves, and what remains is associativity and commutativity
  of the product — no distributivity, so no finiteness of the entries is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gate

open Idealize.ShloMosaic Idealize.ShloMosaic.ValueIdx

/-- The word of 2⁻¹⁰ denotes the real 1/1024. -/
theorem ofBits_inv1024 : Ideal.ofBits .f32 0x3A800000#32 = ((1 / 1024 : ℝ) : EReal) := by
  simp [Ideal.ofBits, Ideal.ieee, -EReal.coe_mul]; norm_num

/-- The word of 1024.0 denotes the real 1024. -/
theorem ofBits_1024 : Ideal.ofBits .f32 0x44800000#32 = ((1024 : ℝ) : EReal) := by
  simp [Ideal.ofBits, Ideal.ieee, -EReal.coe_mul]; norm_num

/-- A quotient by 1024.0 is the product with 2⁻¹⁰, at every extended real. -/
theorem div_1024 (w : EReal) :
    Ideal.div w (Ideal.ofBits .f32 0x44800000#32) = w * Ideal.ofBits .f32 0x3A800000#32 := by
  rw [ofBits_1024, ofBits_inv1024]
  exact Ideal.div_coe (by norm_num : (1024 : ℝ) ≠ 0) w

/-- A sum over the 1024 positions is the sum over the first 512 plus the sum over the last 512. -/
theorem sum_positions (g : Fin 1024 → EReal) :
    ∑ p : Fin 1024, g p
      = (∑ p : Fin 512, g (Fin.castAdd 512 p)) + ∑ p : Fin 512, g (Fin.natAdd 512 p) :=
  Fin.sum_univ_add (a := 512) (b := 512) g

/-- The hidden pre-activation from the MEAN: whole spatial sum from zero, times 2⁻¹⁰, against the weights' rows. -/
def hiddenMean (x : Fin 1024 → Fin 512 → EReal) (w1 : Fin 32 → Fin 512 → EReal) (j : Fin 32) : EReal :=
  ∑ k : Fin 512, ((Ideal.ofBits .f32 0x00000000#32 + ∑ p : Fin 1024, x p k) * Ideal.ofBits .f32 0x3A800000#32) * w1 j k

/-- The hidden pre-activation from the SUM in two halves, against weights scaled beforehand (`ws k j`). -/
def hiddenScaled (x : Fin 1024 → Fin 512 → EReal) (ws : Fin 512 → Fin 32 → EReal) (j : Fin 32) : EReal :=
  ∑ k : Fin 512, ((Ideal.ofBits .f32 0x00000000#32 + ∑ p : Fin 512, x (Fin.castAdd 512 p) k)
      + ∑ p : Fin 512, x (Fin.natAdd 512 p) k) * ws k j

/-- THE LAW: the two hidden pre-activations agree when the scaled weights are the weights over 1024.0. -/
theorem hiddenMean_eq_hiddenScaled (x : Fin 1024 → Fin 512 → EReal) (w1 : Fin 32 → Fin 512 → EReal) (j : Fin 32) :
    hiddenMean x w1 j
      = hiddenScaled x (fun k j => Ideal.div (w1 j k) (Ideal.ofBits .f32 0x44800000#32)) j := by
  unfold hiddenMean hiddenScaled
  refine Finset.sum_congr rfl fun k _ => ?_
  dsimp only
  rw [div_1024, sum_positions (fun p => x p k), Ideal.ofBits_zero_f32, zero_add, zero_add, mul_assoc,
    mul_comm (Ideal.ofBits .f32 0x3A800000#32) (w1 j k)]

/-- The excitation: bias, rectifier, second linear layer, bias, logistic. -/
def excite (h b1 : Fin 32 → EReal) (w2 : Fin 32 → Fin 512 → EReal) (b2 : Fin 512 → EReal) (c : Fin 512) : EReal :=
  Ideal.logistic ((∑ j : Fin 32, max (h j + b1 j) (Ideal.ofBits .f32 0x00000000#32) * w2 j c) + b2 c)

/-! ## The gate of a whole batch

  The arrays: the input re-laid channels-last as [64 images, 1024 positions, 512 channels]; the first layer's weights
  [32, 512] (or, scaled beforehand and transposed, [512, 32]); the biases as rows [1, 32] and [1, 512]; the second layer's
  weights transposed, [32, 512]. The gate array is [64, 512]. -/

/-- The batch's gates through the mean. -/
def gateMean (X : (⟨3, ![64, 1024, 512]⟩ : Shape).Idx → EReal) (W1 : (⟨2, ![32, 512]⟩ : Shape).Idx → EReal)
    (B1 : (⟨2, ![1, 32]⟩ : Shape).Idx → EReal) (W2 : (⟨2, ![32, 512]⟩ : Shape).Idx → EReal)
    (B2 : (⟨2, ![1, 512]⟩ : Shape).Idx → EReal) : (⟨2, ![64, 512]⟩ : Shape).Idx → EReal := fun i =>
  excite (hiddenMean (fun p k => X (ix3 (i 0) p k)) (fun j k => W1 (ix2 j k))) (fun j => B1 (ix2 (0 : Fin 1) j))
    (fun j c => W2 (ix2 j c)) (fun c => B2 (ix2 (0 : Fin 1) c)) (i 1)

/-- The batch's gates through the two half sums and weights scaled beforehand. -/
def gateScaled (X : (⟨3, ![64, 1024, 512]⟩ : Shape).Idx → EReal) (Ws : (⟨2, ![512, 32]⟩ : Shape).Idx → EReal)
    (B1 : (⟨2, ![1, 32]⟩ : Shape).Idx → EReal) (W2 : (⟨2, ![32, 512]⟩ : Shape).Idx → EReal)
    (B2 : (⟨2, ![1, 512]⟩ : Shape).Idx → EReal) : (⟨2, ![64, 512]⟩ : Shape).Idx → EReal := fun i =>
  excite (hiddenScaled (fun p k => X (ix3 (i 0) p k)) (fun k j => Ws (ix2 k j))) (fun j => B1 (ix2 (0 : Fin 1) j))
    (fun j c => W2 (ix2 j c)) (fun c => B2 (ix2 (0 : Fin 1) c)) (i 1)

/-- The two agree when the scaled weights are the transposed weights over 1024.0. -/
theorem gateMean_eq_gateScaled (X : (⟨3, ![64, 1024, 512]⟩ : Shape).Idx → EReal) (W1 : (⟨2, ![32, 512]⟩ : Shape).Idx → EReal)
    (Ws : (⟨2, ![512, 32]⟩ : Shape).Idx → EReal) (B1 : (⟨2, ![1, 32]⟩ : Shape).Idx → EReal)
    (W2 : (⟨2, ![32, 512]⟩ : Shape).Idx → EReal) (B2 : (⟨2, ![1, 512]⟩ : Shape).Idx → EReal)
    (hWs : ∀ (k : Fin 512) (j : Fin 32), Ws (ix2 k j) = Ideal.div (W1 (ix2 j k)) (Ideal.ofBits .f32 0x44800000#32)) :
    gateMean X W1 B1 W2 B2 = gateScaled X Ws B1 W2 B2 := by
  funext i
  unfold gateMean gateScaled
  have e : hiddenMean (fun p k => X (ix3 (i 0) p k)) (fun j k => W1 (ix2 j k))
      = hiddenScaled (fun p k => X (ix3 (i 0) p k)) (fun k j => Ws (ix2 k j)) := by
    funext j
    rw [hiddenMean_eq_hiddenScaled]
    exact congrArg (fun ws => hiddenScaled _ ws j) (funext fun k => funext fun j => (hWs k j).symm)
  rw [e]

/-- The gate array [64, 512] laid out as [64, 512, 1, 1]: inserting two unit axes by a broadcast along axes (0, 1) or by a
    reshape gives the same array. -/
theorem unit_axes_eq (g : (⟨2, ![64, 512]⟩ : Shape).Idx → EReal)
    (hb : (⟨2, ![64, 512]⟩ : Shape).BroadcastsInDim ⟨4, ![64, 512, 1, 1]⟩ (![0, 1] : Fin 2 → Fin 4))
    (hs : (⟨2, ![64, 512]⟩ : Shape).ShapeCasts ⟨4, ![64, 512, 1, 1]⟩) :
    broadcastInDim ⟨4, ![64, 512, 1, 1]⟩ ![0, 1] hb g = shapeCast ⟨4, ![64, 512, 1, 1]⟩ g hs := by
  funext i
  obtain ⟨n, c, u, v, rfl⟩ : ∃ (n : Fin 64) (c : Fin 512) (u v : Fin 1), i = ix4 n c u v := ⟨i 0, i 1, i 2, i 3, eq_ix4 i⟩
  have hu : u.val = 0 := by omega
  have hv : v.val = 0 := by omega
  refine (broadcastInDim_apply _ hb g (ix4 n c u v) (ix2 n c) fun a => ?_).trans
    (shapeCast_apply g hs (ix4 n c u v) (ix2 n c) ?_).symm
  · match a with
    | ⟨0, _⟩ => rfl
    | ⟨1, _⟩ => rfl
  · rw [Shape.rowMajor_val_four, Shape.rowMajor_val_two]
    show n.val * 512 + c.val = ((n.val * 512 + c.val) * 1 + u.val) * 1 + v.val
    omega

end Cert.Gate

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibTransposedDot.lean ====
/-
  A matrix product against a transposed right operand, read at an index.

  For the dimension numbers of an `M×K` by `N×K` product (`DotDims.transposedRhs`: both operands contracted on
  their second axis, no batch axis), the sum over the contraction index of the operands' products at result index
  `(i, j)` is `Σ_k l[i,k]·r[j,k]` over `k : Fin K` — a row of the left operand against a row of the right one.
  Stated for the sum itself, and for a kernel's matrix product into a zero accumulator and a host's `dot_general`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of such a product has one axis. -/
theorem transposedRhs_contr_rank (M K N : Nat) : (DotDims.transposedRhs M K N).contr.rank = 1 := rfl

/-- The left operand's index at result `(i, j)` and contraction position `k` is `(i, k)`. -/
theorem transposedRhs_lhsIdx (M K N : Nat) (i : Fin M) (j : Fin N) (k : Fin K) :
    (DotDims.transposedRhs M K N).lhsIdx (ix2 i j) ((contrEquiv1 (DotDims.transposedRhs M K N) K rfl rfl).symm k) = ix2 i k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- The right operand's index at result `(i, j)` and contraction position `k` is `(j, k)`. -/
theorem transposedRhs_rhsIdx (M K N : Nat) (i : Fin M) (j : Fin N) (k : Fin K) :
    (DotDims.transposedRhs M K N).rhsIdx (ix2 i j) ((contrEquiv1 (DotDims.transposedRhs M K N) K rfl rfl).symm k) = ix2 j k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- THE PRODUCT'S SUM at `(i, j)`: over `k : Fin K`, of `l[i,k]·r[j,k]`. -/
theorem transposedRhs_sum (M K N : Nat) (l : (⟨2, ![M, K]⟩ : Shape).Idx → EReal) (r : (⟨2, ![N, K]⟩ : Shape).Idx → EReal)
    (i : Fin M) (j : Fin N) :
    (∑ q : (DotDims.transposedRhs M K N).contr.Idx,
        l ((DotDims.transposedRhs M K N).lhsIdx (ix2 i j) q) * r ((DotDims.transposedRhs M K N).rhsIdx (ix2 i j) q))
      = ∑ k : Fin K, l (ix2 i k) * r (ix2 j k) := by
  rw [← Equiv.sum_comp (contrEquiv1 (DotDims.transposedRhs M K N) K rfl rfl).symm]
  exact Finset.sum_congr rfl fun k _ => by rw [transposedRhs_lhsIdx, transposedRhs_rhsIdx]

/-- A kernel's matrix product with these dimension numbers into the zero splat, at the ideal values, read at `(i, j)`. -/
theorem transposedRhs_matmul_zero_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    matmul (DotDims.transposedRhs M K N) prec l r (constant ⟨2, ![M, N]⟩ .f32 0x00000000#32) (ix2 i j)
      = ∑ k : Fin K, l (ix2 i k) * r (ix2 j k) :=
  (Ideal.matmul_constant_zero_apply (DotDims.transposedRhs M K N) prec l r (ix2 i j)).trans (transposedRhs_sum M K N l r i j)

/-- A host `dot_general` with these dimension numbers, at the ideal values, read at `(i, j)`. -/
theorem transposedRhs_dotGeneral_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    Host.dotGeneral (DotDims.transposedRhs M K N) prec l r (ix2 i j) = ∑ k : Fin K, l (ix2 i k) * r (ix2 j k) :=
  (Ideal.dotGeneral_apply (DotDims.transposedRhs M K N) prec _ l r (ix2 i j)).trans (transposedRhs_sum M K N l r i j)

end Cert.Lib

end
-- ==== Proof.KernelGate.lean ====
/-
  The fused kernel's arithmetic read at an index, on the extended reals.

  Of an input tile x0 (8 images × 1024 positions × 512 channels) and the resident blocks — the first layer's weights
  (32 × 512), its bias as a row (1 × 32), the second layer's weights transposed (32 × 512), its bias as a row (1 × 512)
  — the output block at (image r, channel c) is the gate `excite (hiddenMean …)` of image r's tile: the running
  sum is zero plus the sum over the 1024 positions, the mean is that times 2⁻¹⁰, the first product contracts the
  channel axes of both operands, the second is a plain product.
-/
import proofs.«116428_g2000103900817249_pallaspilot1_116_34_alg».proof.Proof.Gen.KernelIdeal.Skeleton
import proofs.«116428_g2000103900817249_pallaspilot1_116_34_alg».proof.Proof.Gate
import proofs.«116428_g2000103900817249_pallaspilot1_116_34_alg».proof.Proof.LibPlainDot
import proofs.«116428_g2000103900817249_pallaspilot1_116_34_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.GateValue

open Idealize.ShloMosaic Idealize.ShloMosaic.ValueIdx Cert.KernelIdeal Cert.KernelIdeal.Gen Cert.Lib

/-- The block the step first stores into the running sum is zero everywhere. -/
theorem zero_apply (j : S8x512.Idx) : k0_pay1 (F := Ideal) j = Ideal.ofBits .f32 0x00000000#32 := by
  unfold k0_pay1
  simp only [shapeCast_self]
  rfl

/-- The sum over the positions of a tile, at (image r, channel k). -/
theorem positions_sum (x0 : FVec Ideal S8x1024x512 .f32) (h : S8x1024x512.Reduces [1] S8x512)
    (hφ : FKind.Formats .f32) (hacc : (0x00000000#32 : BitVec 32) = FKind.add.neutral .f32 hφ) (r : Fin 8) (k : Fin 512) :
    multiReduction .add [1] S8x512 x0 0x00000000#32 h hφ hacc (ix2 r k) = ∑ p : Fin 1024, x0 (ix3 r p k) := by
  refine (Ideal.multiReduction_add_single x0 0x00000000#32 h hφ hacc (ix2 r k)).trans ?_
  refine Finset.sum_congr rfl fun p _ => congrArg x0 (funext fun a => Fin.ext ?_)
  match a with
  | ⟨0, _⟩ => rfl
  | ⟨1, _⟩ => rfl
  | ⟨2, _⟩ => rfl

/-- The updated running sum at (r, k): what it held plus the tile's sum over the positions. -/
theorem acc_apply (v3 : FVec Ideal S8x512 .f32) (x0 : FVec Ideal S8x1024x512 .f32) (r : Fin 8) (k : Fin 512) :
    k0_pay2 (F := Ideal) v3 x0 (ix2 r k) = v3 (ix2 r k) + ∑ p : Fin 1024, x0 (ix3 r p k) := by
  unfold k0_pay2
  simp only [shapeCast_self]
  exact congrArg (v3 (ix2 r k) + ·) (positions_sum x0 _ _ _ r k)

theorem dotT_eq : dot_S8x512_S32x512_S8x32_1_1_0_0_n_n = DotDims.transposedRhs 8 512 32 := rfl
theorem dotP_eq : dot_S8x32_S32x512_S8x512_1_0_0_1_n_n = DotDims.plain 8 32 512 := rfl

/-- The gate's arithmetic at (r, c), from the running sum `acc` and the resident blocks. -/
theorem gate_apply (acc : FVec Ideal S8x512 .f32) (x1 : FVec Ideal S32x512 .f32) (x2 : FVec Ideal S1x32 .f32)
    (x3 : FVec Ideal S32x512 .f32) (x4 : FVec Ideal S1x512 .f32) (r : Fin 8) (c : Fin 512) :
    k0_pay3 (F := Ideal) acc x1 x2 x3 x4 (ix2 r c)
      = Cert.Gate.excite (fun j => ∑ k : Fin 512, (acc (ix2 r k) * Ideal.ofBits .f32 0x3A800000#32) * x1 (ix2 j k))
          (fun j => x2 (ix2 (0 : Fin 1) j)) (fun j c => x3 (ix2 j c)) (fun c => x4 (ix2 (0 : Fin 1) c)) c := by
  unfold k0_pay3 Cert.Gate.excite
  simp only [shapeCast_self]
  rw [dotT_eq, dotP_eq]
  show Ideal.logistic (_ + _) = _
  rw [plain_matmul_zero_apply, broadcastTo_1b_ab_apply]
  refine congrArg Ideal.logistic (congrArg (· + x4 (ix2 (0 : Fin 1) c)) (Finset.sum_congr rfl fun j _ => ?_))
  rw [maximumf_apply, addf_apply, transposedRhs_matmul_zero_apply, broadcastTo_1b_ab_apply]
  rfl

/-- One step's output block at (r, c) is the batch's gate at (n, c), when image r of the tile is image n of the batch
    and the resident blocks are the whole weight and bias arrays. -/
theorem step_value (x0 : FVec Ideal S8x1024x512 .f32) (x1 : FVec Ideal S32x512 .f32) (x2 : FVec Ideal S1x32 .f32)
    (x3 : FVec Ideal S32x512 .f32) (x4 : FVec Ideal S1x512 .f32)
    (X : S64x1024x512.Idx → EReal) (W1 : S32x512.Idx → EReal) (B1 : S1x32.Idx → EReal) (W2 : S32x512.Idx → EReal)
    (B2 : S1x512.Idx → EReal) (n : Fin 64) (r : Fin 8) (c : Fin 512)
    (h0 : ∀ (p : Fin 1024) (k : Fin 512), x0 (ix3 r p k) = X (ix3 n p k))
    (h1 : ∀ (j : Fin 32) (k : Fin 512), x1 (ix2 j k) = W1 (ix2 j k))
    (h2 : ∀ j : Fin 32, x2 (ix2 (0 : Fin 1) j) = B1 (ix2 (0 : Fin 1) j))
    (h3 : ∀ (j : Fin 32) (c : Fin 512), x3 (ix2 j c) = W2 (ix2 j c))
    (h4 : ∀ c : Fin 512, x4 (ix2 (0 : Fin 1) c) = B2 (ix2 (0 : Fin 1) c)) :
    k0_pay3 (F := Ideal) (k0_pay2 (F := Ideal) (k0_pay1 (F := Ideal)) x0) x1 x2 x3 x4 (ix2 r c) = Cert.Gate.gateMean X W1 B1 W2 B2 (ix2 n c) := by
  rw [gate_apply]
  unfold Cert.Gate.gateMean Cert.Gate.hiddenMean
  simp only [acc_apply, zero_apply, h0, h1, h2, h3, h4]

end Cert.KernelIdeal.GateValue

end
-- ==== Proof.KernelArray.lean ====
/-
  The fused kernel's result array.

  Grid step t (there are 8, one per tile of 8 images; the spatial axis is one step long) reads images 8t … 8t+7 of the
  channels-last input and the whole weight and bias arrays, and writes rows 8t … 8t+7 of the [64, 512] gate array. So
  every step's block is the restriction of ONE function of the arrays the region finds — the batch's gates through the
  mean — and the 8 blocks cover the array. The line after the call inserts two unit axes.
-/
import proofs.«116428_g2000103900817249_pallaspilot1_116_34_alg».proof.Proof.Gen.KernelIdeal.Frame
import proofs.«116428_g2000103900817249_pallaspilot1_116_34_alg».proof.Proof.KernelBody
import proofs.«116428_g2000103900817249_pallaspilot1_116_34_alg».proof.Proof.KernelGate
import proofs.«116428_g2000103900817249_pallaspilot1_116_34_alg».proof.Proof.Gate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.GateArray

open Cert.KernelIdeal Cert.KernelIdeal.Gen Cert.KernelIdeal.Facts₀ Idealize.ShloMosaic.ValueIdx

variable (m : (ℓ : Loc nD τ sig) → Buf (Elt Ideal) ℓ) (ρ : Dev nD → PrngReg)

/-- The printed index maps, decided over the 8 grid points: the input tile and the output block move with the step
    along the image axis; the weight and bias blocks stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The gate array as a function of the arrays the region finds. -/
abbrev gates (c : Dev nD) : S64x512.Idx → EReal :=
  Cert.Gate.gateMean (V m c main_v1) (V m c main_arg1) (V m c main_v3) (V m c main_v2) (V m c main_v4)

/-- Image r of step t's input tile is image 8t + r of the input. -/
theorem tile_apply (c : Dev nD) (t : Fin cfg0.N) (r : Fin 8) (p : Fin 1024) (k : Fin 512) (n : Fin 64)
    (hn : n.val = 8 * t.val + r.val) :
    (iblk m c 0 t : FVec Ideal S8x1024x512 .f32) (ix3 r p k) = V m c main_v1 (ix3 n p k) := by
  obtain ⟨e0, e1, e2, -⟩ := idx_facts t
  unfold iblk
  rw [View.read_apply]
  show V m c main_v1 (((cfg0.win 0).blk t).view.emb (ix3 r p k)) = _
  refine congrArg (V m c main_v1) (funext fun a => Fin.ext ?_)
  match a with
  | ⟨0, _⟩ => show win0_0.index t (0 : Fin 3) * 8 + 1 * r.val = n.val; omega
  | ⟨1, _⟩ => show win0_0.index t (1 : Fin 3) * 1024 + 1 * p.val = p.val; omega
  | ⟨2, _⟩ => show win0_0.index t (2 : Fin 3) * 512 + 1 * k.val = k.val; omega

/-- The first layer's weight block is the whole array. -/
theorem w1_apply (c : Dev nD) (t : Fin cfg0.N) (j : Fin 32) (k : Fin 512) :
    (iblk m c 1 t : FVec Ideal S32x512 .f32) (ix2 j k) = V m c main_arg1 (ix2 j k) := by
  obtain ⟨-, -, -, e0, e1, -⟩ := idx_facts t
  unfold iblk
  rw [View.read_apply]
  show V m c main_arg1 (((cfg0.win 1).blk t).view.emb (ix2 j k)) = _
  refine congrArg (V m c main_arg1) (funext fun a => Fin.ext ?_)
  match a with
  | ⟨0, _⟩ => show win0_1.index t (0 : Fin 2) * 32 + 1 * j.val = j.val; omega
  | ⟨1, _⟩ => show win0_1.index t (1 : Fin 2) * 512 + 1 * k.val = k.val; omega

/-- The first bias row's block is the whole row. -/
theorem b1_apply (c : Dev nD) (t : Fin cfg0.N) (j : Fin 32) :
    (iblk m c 2 t : FVec Ideal S1x32 .f32) (ix2 (0 : Fin 1) j) = V m c main_v3 (ix2 (0 : Fin 1) j) := by
  obtain ⟨-, -, -, -, -, e0, e1, -⟩ := idx_facts t
  unfold iblk
  rw [View.read_apply]
  show V m c main_v3 (((cfg0.win 2).blk t).view.emb (ix2 (0 : Fin 1) j)) = _
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 32 + 1 * j.val = j.val; omega

/-- The second layer's (transposed) weight block is the whole array. -/
theorem w2_apply (c : Dev nD) (t : Fin cfg0.N) (j : Fin 32) (k : Fin 512) :
    (iblk m c 3 t : FVec Ideal S32x512 .f32) (ix2 j k) = V m c main_v2 (ix2 j k) := by
  obtain ⟨-, -, -, -, -, -, -, e0, e1, -⟩ := idx_facts t
  unfold iblk
  rw [View.read_apply]
  show V m c main_v2 (((cfg0.win 3).blk t).view.emb (ix2 j k)) = _
  refine congrArg (V m c main_v2) (funext fun a => Fin.ext ?_)
  match a with
  | ⟨0, _⟩ => show win0_3.index t (0 : Fin 2) * 32 + 1 * j.val = j.val; omega
  | ⟨1, _⟩ => show win0_3.index t (1 : Fin 2) * 512 + 1 * k.val = k.val; omega

/-- The second bias row's block is the whole row. -/
theorem b2_apply (c : Dev nD) (t : Fin cfg0.N) (k : Fin 512) :
    (iblk m c 4 t : FVec Ideal S1x512 .f32) (ix2 (0 : Fin 1) k) = V m c main_v4 (ix2 (0 : Fin 1) k) := by
  obtain ⟨-, -, -, -, -, -, -, -, -, e0, e1, -⟩ := idx_facts t
  unfold iblk
  rw [View.read_apply]
  show V m c main_v4 (((cfg0.win 4).blk t).view.emb (ix2 (0 : Fin 1) k)) = _
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 512 + 1 * k.val = k.val; omega

/-- WHAT STEP t WRITES BACK is block t of the gate array. -/
theorem flushed_eq (c : Dev nD) (t : Fin cfg0.N) :
    (dats m 0 c).flushed 5 t = ((cfg0.win 5).blk t).view.read (Elt Ideal) (gates m c) := by
  show (cfg0.win 5).cut (grid0.coords t) ((dats m 0 c).after 5 t) = _
  rw [after0_5]
  unfold outsAt0
  rw [Cert.KernelIdeal.Body.out_step]
  have hN : cfg0.N = 8 := N_0
  have ht : t.val < 8 := lt_of_lt_of_eq t.isLt hN
  obtain ⟨-, -, -, -, -, -, -, -, -, -, -, e0, e1⟩ := idx_facts t
  funext y
  obtain ⟨r, cc, rfl⟩ : ∃ (r : Fin 8) (cc : Fin 512), y = ix2 r cc := ⟨y 0, y 1, eq_ix2 y⟩
  have hr : r.val < 8 := r.isLt
  have he : ((cfg0.win 5).blk t).view.emb (ix2 r cc) = ix2 (⟨8 * t.val + r.val, by omega⟩ : Fin 64) cc := by
    funext a; apply Fin.ext
    match a with
    | ⟨0, _⟩ => show win0_5.index t (0 : Fin 2) * 8 + 1 * r.val = 8 * t.val + r.val; omega
    | ⟨1, _⟩ => show win0_5.index t (1 : Fin 2) * 512 + 1 * cc.val = cc.val; omega
  rw [View.read_apply]
  show k0_pay3 (F := Ideal) (k0_pay2 (F := Ideal) (k0_pay1 (F := Ideal)) (iblk m c 0 t)) (iblk m c 1 t) (iblk m c 2 t) (iblk m c 3 t) (iblk m c 4 t) (ix2 r cc)
    = gates m c (((cfg0.win 5).blk t).view.emb (ix2 r cc))
  rw [he]
  exact Cert.KernelIdeal.GateValue.step_value (iblk m c 0 t) (iblk m c 1 t) (iblk m c 2 t) (iblk m c 3 t) (iblk m c 4 t)
    (V m c main_v1) (V m c main_arg1) (V m c main_v3) (V m c main_v2) (V m c main_v4) ⟨8 * t.val + r.val, by omega⟩ r cc
    (fun p k => tile_apply m c t r p k _ rfl) (fun j k => w1_apply m c t j k) (fun j => b1_apply m c t j)
    (fun j k => w2_apply m c t j k) (fun k => b2_apply m c t k)

/-- An index of the gate array is in step t's block iff its coordinates are in the block's ranges. -/
theorem mem_blk (t : Fin cfg0.N) (i : S64x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v5).slice (win0_5.rect t)).set ↔ _
  rw [View.set_slice_whole, Rect.mem_set_unit]
  exact Iff.rfl

/-- THE GATE ARRAY after the region: row n was written by step n / 8. -/
theorem final (c : Dev nD) : (dats m 0 c).arrAt 5 cfg0.N = gates m c :=
  (dats m 0 c).arrAt_eq_of_cover 5 (gates m c) (fun t _ => flushed_eq m c t) fun i => by
    have hN : cfg0.N = 8 := N_0
    have hi0 : (i 0).val < 64 := (i 0).isLt
    have hi1 : (i 1).val < 512 := (i 1).isLt
    refine ⟨⟨(i 0).val / 8, by rw [hN]; omega⟩, flush0_5 _, ?_⟩
    rw [mem_blk]
    obtain ⟨-, -, -, -, -, -, -, -, -, -, -, e0, e1⟩ := idx_facts ⟨(i 0).val / 8, by rw [hN]; omega⟩
    intro a
    match a with
    | ⟨0, _⟩ =>
      show win0_5.index ⟨(i 0).val / 8, _⟩ (0 : Fin 2) * 8 ≤ (i 0).val ∧ (i 0).val < win0_5.index ⟨(i 0).val / 8, _⟩ (0 : Fin 2) * 8 + 8
      rw [e0]; show (i 0).val / 8 * 8 ≤ (i 0).val ∧ (i 0).val < (i 0).val / 8 * 8 + 8; omega
    | ⟨1, _⟩ =>
      show win0_5.index ⟨(i 0).val / 8, _⟩ (1 : Fin 2) * 512 ≤ (i 1).val ∧ (i 1).val < win0_5.index ⟨(i 0).val / 8, _⟩ (1 : Fin 2) * 512 + 512
      rw [e1]; omega

end Cert.KernelIdeal.GateArray

end
-- ==== Proof.KernelRun.lean ====
/-
  The fused program's run, read: its result as a function of its arguments.

  Before the call the program re-lays the input channels-last (a transpose then a reshape to [64, 1024, 512]), transposes
  the second layer's weights and turns the two bias vectors into rows; after it, it inserts two unit axes into the gate
  array. So the result is those two unit axes over the batch's gates through the mean, of the re-laid arguments.
-/
import proofs.«116428_g2000103900817249_pallaspilot1_116_34_alg».proof.Proof.KernelArray

noncomputable section

open Idealize.ShloMosaic Idealize.ShloMosaic.TcCoe Idealize.SL.Sem
open Idealize.ShloMosaic.Pipeline (Dat)

namespace Cert.KernelIdeal.GateRun

open Cert.KernelIdeal Cert.KernelIdeal.Gen Idealize.ShloMosaic.ValueIdx

/-- The result array as a function of the five argument arrays. -/
def result [Facts] (a0 : S64x512x32x32.Idx → EReal) (a1 : S32x512.Idx → EReal) (a2 : S32.Idx → EReal)
    (a3 : S512x32.Idx → EReal) (a4 : S512.Idx → EReal) : S64x512x1x1.Idx → EReal :=
  broadcastInDim S64x512x1x1 ![0, 1] bcast_S64x512_S64x512x1x1_0_1
    (Cert.Gate.gateMean
      (shapeCast S64x1024x512 (transpose S64x32x32x512 [0, 2, 3, 1] a0 transposes_S64x512x32x32_S64x32x32x512_0_2_3_1)
        shapeCasts_S64x32x32x512_S64x1024x512)
      a1 (shapeCast S1x32 a2 shapeCasts_S32_S1x32) (transpose S32x512 [1, 0] a3 transposes_S512x32_S32x512_1_0)
      (shapeCast S1x512 a4 shapeCasts_S512_S1x512))

variable (m : (ℓ : Loc nD τ sig) → Buf (Elt Ideal) ℓ) (ρ : Dev nD → PrngReg)

/-- The region finds the input re-laid channels-last. -/
theorem V_input (c : Dev nD) : (V m c main_v1 : S64x1024x512.Idx → EReal)
    = shapeCast S64x1024x512 (transpose S64x32x32x512 [0, 2, 3, 1] (m ((c : Thread nD τ).loc main_arg0))
        transposes_S64x512x32x32_S64x32x32x512_0_2_3_1) shapeCasts_S64x32x32x512_S64x1024x512 := by
  show StableHlo.after hostOps0 (fun b => m (c, b)) (Proc.devRef .tc main_v1) = _
  after_results
  all_goals rfl

/-- … the first bias as a row, -/
theorem V_b1 (c : Dev nD) : (V m c main_v3 : S1x32.Idx → EReal)
    = shapeCast S1x32 (m ((c : Thread nD τ).loc main_arg2)) shapeCasts_S32_S1x32 := by
  show StableHlo.after hostOps0 (fun b => m (c, b)) (Proc.devRef .tc main_v3) = _
  after_results
  all_goals rfl

/-- … the second layer's weights transposed, -/
theorem V_w2 (c : Dev nD) : (V m c main_v2 : S32x512.Idx → EReal)
    = transpose S32x512 [1, 0] (m ((c : Thread nD τ).loc main_arg3)) transposes_S512x32_S32x512_1_0 := by
  show StableHlo.after hostOps0 (fun b => m (c, b)) (Proc.devRef .tc main_v2) = _
  after_results
  all_goals rfl

/-- … and the second bias as a row. -/
theorem V_b2 (c : Dev nD) : (V m c main_v4 : S1x512.Idx → EReal)
    = shapeCast S1x512 (m ((c : Thread nD τ).loc main_arg4)) shapeCasts_S512_S1x512 := by
  show StableHlo.after hostOps0 (fun b => m (c, b)) (Proc.devRef .tc main_v4) = _
  after_results
  all_goals rfl

/-- The line after the call, read: the result is the gate array with two unit axes inserted. -/
theorem tail_eq (c : Dev nD) :
    Pipeline.afterTail₀ cfgs (dats m) 0 (V0 m) [hostOps1] c main_v6
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  unfold result
  refine congrArg (broadcastInDim S64x512x1x1 _ bcast_S64x512_S64x512x1x1_0_1) ?_
  refine ((Pipeline.withArrays_arr spec0 launch0.win.arr_inj c _ _ 5).trans (Cert.KernelIdeal.GateArray.final m c)).trans ?_
  show Cert.Gate.gateMean (V m c main_v1) (V m c main_arg1) (V m c main_v3) (V m c main_v2) (V m c main_v4) = _
  rw [V_input, V_main_arg1, V_b1, V_w2, V_b2]

/-- THE RUN: every weakly fair execution terminates with the result at `result` of the arguments, the arguments unchanged. -/
theorem run : θ_run defs (onTc (τ := τ) (main (F := Ideal))) ⟨m, fun _ => 0, ρ⟩ (fun r => ∀ c : Dev nD,
      r.2.mem ((c.tc : Thread nD τ).loc main_v6)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v6 (Pipeline.mem_restRefs_of main_v6 (by decide) (by decide))).trans (tail_eq m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.KernelIdeal.GateRun

end
-- ==== Proof.RefBody.lean ====
/-
  What one grid step of the reference's kernel leaves in its running sum and in its output block.

  The grid is 8 × 2: each tile of 8 images is visited twice, once per half of the 1024 positions. The FIRST visit zeroes the
  running sum and adds the first half's spatial sum to it; it writes no output. The SECOND visit adds the second half's
  spatial sum to what the first left, and computes the gate from the total.
-/
import proofs.«116428_g2000103900817249_pallaspilot1_116_34_alg».proof.Proof.Gen.ReferenceIdeal.Frame
import proofs.«116428_g2000103900817249_pallaspilot1_116_34_alg».proof.Proof.LibReadBack
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.Body

open Cert.ReferenceIdeal Cert.ReferenceIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- After a first visit the running sum is the zero block plus the half tile's spatial sum. -/
theorem sum_first (c : Dev nD) (i : grid0.Coords) (arg2 : Memref sig .tc .vmem S8x512x512 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : ¬cond0_1 i) (x0 : Vec F S8x512x512 .f32) (x1 : Vec F S512x32 .f32) (x2 : Vec F S1x32 .f32) (x3 : Vec F S32x512 .f32) (x4 : Vec F S1x512 .f32) :
    sout0_A_0 c i arg2 harg2 arg3 harg3 arg4 harg4 arg5 harg5 arg6 harg6 arg7 harg7 arg8 harg8 hc0 hc1 x0 x1 x2 x3 x4 = k0_pay2 (k0_pay1 (F := F)) x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero zeros2, View.readCov_unit_zero _ zeros2]
  simp only [View.readAt_eq_ld, harg2.read_unread, View.ld_unit_zero (S := S8x512x512) zeros3]

/-- After a second visit the running sum is what it held (`xs0`) plus the half tile's spatial sum. -/
theorem sum_second (c : Dev nD) (i : grid0.Coords) (arg2 : Memref sig .tc .vmem S8x512x512 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (x0 : Vec F S8x512x512 .f32) (x1 : Vec F S512x32 .f32) (x2 : Vec F S1x32 .f32) (x3 : Vec F S32x512 .f32) (x4 : Vec F S1x512 .f32) (xs0 : Vec F S8x512 .f32) :
    sout0_B_0 c i arg2 harg2 arg3 harg3 arg4 harg4 arg5 harg5 arg6 harg6 arg7 harg7 arg8 harg8 hc0 hc1 x0 x1 x2 x3 x4 xs0 = k0_pay2 xs0 x0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero zeros2]
  simp only [View.readAt_eq_ld, harg2.read_unread, harg8.read_unread, View.ld_unit_zero (S := S8x512x512) zeros3,
    View.ld_unit_zero (S := S8x512) zeros2]

/-- The output block after a second visit: the gate arithmetic of the updated running sum and the resident blocks. -/
theorem out_second (c : Dev nD) (i : grid0.Coords) (arg2 : Memref sig .tc .vmem S8x512x512 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (x0 : Vec F S8x512x512 .f32) (x1 : Vec F S512x32 .f32) (x2 : Vec F S1x32 .f32) (x3 : Vec F S32x512 .f32) (x4 : Vec F S1x512 .f32) (xs0 : Vec F S8x512 .f32) :
    out0_B_5 c i arg2 harg2 arg3 harg3 arg4 harg4 arg5 harg5 arg6 harg6 arg7 harg7 arg8 harg8 hc0 hc1 x0 x1 x2 x3 x4 xs0 = k0_pay3 (k0_pay2 xs0 x0) x1 x2 x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero zeros2, View.readCov_unit_zero _ zeros2]
  simp only [View.readAt_eq_ld, harg2.read_unread, harg3.read_unread, harg4.read_unread, harg5.read_unread,
    harg6.read_unread, harg8.read_unread, View.ld_unit_zero (S := S8x512x512) zeros3, View.ld_unit_zero (S := S8x512) zeros2,
    View.ld_unit_zero (S := S512x32) zeros2, View.ld_unit_zero (S := S32x512) zeros2,
    View.ld_unit_zero (S := S1x32) zeros2, View.ld_unit_zero (S := S1x512) zeros2]

end Cert.ReferenceIdeal.Body

end
-- ==== Proof.RefGate.lean ====
/-
  The reference kernel's arithmetic read at an index, on the extended reals.

  The running sum after the two visits of a tile is (zero + the first half tile's sum over its 512 positions) + the second
  half tile's sum; the gate at (image r, channel c) is `excite (hiddenScaled …)`: both matrix products are plain
  products, the first against the scaled and transposed weights (512 × 32).
-/
import proofs.«116428_g2000103900817249_pallaspilot1_116_34_alg».proof.Proof.Gen.ReferenceIdeal.Skeleton
import proofs.«116428_g2000103900817249_pallaspilot1_116_34_alg».proof.Proof.Gate
import proofs.«116428_g2000103900817249_pallaspilot1_116_34_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.GateValue

open Idealize.ShloMosaic Idealize.ShloMosaic.ValueIdx Cert.ReferenceIdeal Cert.ReferenceIdeal.Gen Cert.Lib

/-- The block a first visit stores into the running sum is zero everywhere. -/
theorem zero_apply (j : S8x512.Idx) : k0_pay1 (F := Ideal) j = Ideal.ofBits .f32 0x00000000#32 := by
  unfold k0_pay1
  simp only [shapeCast_self]
  rfl

/-- The sum over the 512 positions of a half tile, at (image r, channel k). -/
theorem positions_sum (x0 : FVec Ideal S8x512x512 .f32) (h : S8x512x512.Reduces [1] S8x512)
    (hφ : FKind.Formats .f32) (hacc : (0x00000000#32 : BitVec 32) = FKind.add.neutral .f32 hφ) (r : Fin 8) (k : Fin 512) :
    multiReduction .add [1] S8x512 x0 0x00000000#32 h hφ hacc (ix2 r k) = ∑ p : Fin 512, x0 (ix3 r p k) := by
  refine (Ideal.multiReduction_add_single x0 0x00000000#32 h hφ hacc (ix2 r k)).trans ?_
  refine Finset.sum_congr rfl fun p _ => congrArg x0 (funext fun a => Fin.ext ?_)
  match a with
  | ⟨0, _⟩ => rfl
  | ⟨1, _⟩ => rfl
  | ⟨2, _⟩ => rfl

/-- The updated running sum at (r, k): what it held plus the half tile's sum over the positions. -/
theorem acc_apply (v3 : FVec Ideal S8x512 .f32) (x0 : FVec Ideal S8x512x512 .f32) (r : Fin 8) (k : Fin 512) :
    k0_pay2 (F := Ideal) v3 x0 (ix2 r k) = v3 (ix2 r k) + ∑ p : Fin 512, x0 (ix3 r p k) := by
  unfold k0_pay2
  simp only [shapeCast_self]
  exact congrArg (v3 (ix2 r k) + ·) (positions_sum x0 _ _ _ r k)

theorem dotH_eq : dot_S8x512_S512x32_S8x32_1_0_0_1_n_n = DotDims.plain 8 512 32 := rfl
theorem dotP_eq : dot_S8x32_S32x512_S8x512_1_0_0_1_n_n = DotDims.plain 8 32 512 := rfl

/-- The gate's arithmetic at (r, c), from the running sum `acc` and the resident blocks. -/
theorem gate_apply (acc : FVec Ideal S8x512 .f32) (x1 : FVec Ideal S512x32 .f32) (x2 : FVec Ideal S1x32 .f32)
    (x3 : FVec Ideal S32x512 .f32) (x4 : FVec Ideal S1x512 .f32) (r : Fin 8) (c : Fin 512) :
    k0_pay3 (F := Ideal) acc x1 x2 x3 x4 (ix2 r c)
      = Cert.Gate.excite (fun j => ∑ k : Fin 512, acc (ix2 r k) * x1 (ix2 k j))
          (fun j => x2 (ix2 (0 : Fin 1) j)) (fun j c => x3 (ix2 j c)) (fun c => x4 (ix2 (0 : Fin 1) c)) c := by
  unfold k0_pay3 Cert.Gate.excite
  simp only [shapeCast_self]
  rw [dotH_eq, dotP_eq]
  show Ideal.logistic (_ + _) = _
  rw [plain_matmul_zero_apply, broadcastTo_1b_ab_apply]
  refine congrArg Ideal.logistic (congrArg (· + x4 (ix2 (0 : Fin 1) c)) (Finset.sum_congr rfl fun j _ => ?_))
  rw [maximumf_apply, addf_apply, plain_matmul_zero_apply, broadcastTo_1b_ab_apply]
  rfl

/-- A second visit's output block at (r, c) is the batch's gate at (n, c), when image r of the two half tiles is image n
    of the batch at positions 0 … 511 and 512 … 1023, and the resident blocks are the whole weight and bias arrays. -/
theorem step_value (xA xB : FVec Ideal S8x512x512 .f32) (x1 : FVec Ideal S512x32 .f32) (x2 : FVec Ideal S1x32 .f32)
    (x3 : FVec Ideal S32x512 .f32) (x4 : FVec Ideal S1x512 .f32)
    (X : S64x1024x512.Idx → EReal) (Ws : S512x32.Idx → EReal) (B1 : S1x32.Idx → EReal) (W2 : S32x512.Idx → EReal)
    (B2 : S1x512.Idx → EReal) (n : Fin 64) (r : Fin 8) (c : Fin 512)
    (hA : ∀ (p : Fin 512) (k : Fin 512), xA (ix3 r p k) = X (ix3 n (Fin.castAdd 512 p : Fin 1024) k))
    (hB : ∀ (p : Fin 512) (k : Fin 512), xB (ix3 r p k) = X (ix3 n (Fin.natAdd 512 p : Fin 1024) k))
    (h1 : ∀ (k : Fin 512) (j : Fin 32), x1 (ix2 k j) = Ws (ix2 k j))
    (h2 : ∀ j : Fin 32, x2 (ix2 (0 : Fin 1) j) = B1 (ix2 (0 : Fin 1) j))
    (h3 : ∀ (j : Fin 32) (c : Fin 512), x3 (ix2 j c) = W2 (ix2 j c))
    (h4 : ∀ c : Fin 512, x4 (ix2 (0 : Fin 1) c) = B2 (ix2 (0 : Fin 1) c)) :
    k0_pay3 (F := Ideal) (k0_pay2 (F := Ideal) (k0_pay2 (F := Ideal) (k0_pay1 (F := Ideal)) xA) xB) x1 x2 x3 x4 (ix2 r c)
      = Cert.Gate.gateScaled X Ws B1 W2 B2 (ix2 n c) := by
  rw [gate_apply]
  unfold Cert.Gate.gateScaled Cert.Gate.hiddenScaled
  simp only [acc_apply, zero_apply, hA, hB, h1, h2, h3, h4]

end Cert.ReferenceIdeal.GateValue

end
-- ==== Proof.RefArray.lean ====
/-
  The reference's result array.

  Grid step t (there are 16: tile t / 2 of 8 images, half t % 2 of the positions) reads images 8(t/2) … 8(t/2)+7 at
  positions 512(t%2) … 512(t%2)+511 of the channels-last input and the whole weight and bias arrays. The odd steps write
  rows 8(t/2) … 8(t/2)+7 of the [64, 512] gate array, from the running sum the even step before them started. So every
  written block is the restriction of ONE function of the arrays the region finds — the batch's gates through the two
  half sums and the scaled weights — and the 8 written blocks cover the array. The line after the call inserts two
  unit axes.
-/
import proofs.«116428_g2000103900817249_pallaspilot1_116_34_alg».proof.Proof.Gen.ReferenceIdeal.Frame
import proofs.«116428_g2000103900817249_pallaspilot1_116_34_alg».proof.Proof.RefBody
import proofs.«116428_g2000103900817249_pallaspilot1_116_34_alg».proof.Proof.RefGate
import proofs.«116428_g2000103900817249_pallaspilot1_116_34_alg».proof.Proof.Gate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.GateArray

open Cert.ReferenceIdeal Cert.ReferenceIdeal.Gen Cert.ReferenceIdeal.Facts₀ Idealize.ShloMosaic.ValueIdx

variable (m : (ℓ : Loc nD τ sig) → Buf (Elt Ideal) ℓ) (ρ : Dev nD → PrngReg)

/-- The printed index maps, decided over the 16 grid points: the input tile moves with (t / 2, t % 2) along the image
    and position axes, the output block with t / 2 along the image axis; the weight and bias blocks stay at the origin. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-- The gate array as a function of the arrays the region finds. -/
abbrev gates (c : Dev nD) : S64x512.Idx → EReal :=
  Cert.Gate.gateScaled (V m c main_v1) (V m c main_v4) (V m c main_v6) (V m c main_v5) (V m c main_v7)

/-- Image r, position p of step t's input tile is image 8(t/2) + r, position 512(t%2) + p of the input. -/
theorem tile_apply (c : Dev nD) (t : Fin cfg0.N) (r : Fin 8) (p : Fin 512) (k : Fin 512) (n : Fin 64) (q : Fin 1024)
    (hn : n.val = 8 * (t.val / 2) + r.val) (hq : q.val = 512 * (t.val % 2) + p.val) :
    (iblk m c 0 t : FVec Ideal S8x512x512 .f32) (ix3 r p k) = V m c main_v1 (ix3 n q k) := by
  obtain ⟨e0, e1, e2, -⟩ := idx_facts t
  unfold iblk
  rw [View.read_apply]
  show V m c main_v1 (((cfg0.win 0).blk t).view.emb (ix3 r p k)) = _
  refine congrArg (V m c main_v1) (funext fun a => Fin.ext ?_)
  match a with
  | ⟨0, _⟩ => show win0_0.index t (0 : Fin 3) * 8 + 1 * r.val = n.val; omega
  | ⟨1, _⟩ => show win0_0.index t (1 : Fin 3) * 512 + 1 * p.val = q.val; omega
  | ⟨2, _⟩ => show win0_0.index t (2 : Fin 3) * 512 + 1 * k.val = k.val; omega

/-- The scaled first-layer weight block is the whole array. -/
theorem ws_apply (c : Dev nD) (t : Fin cfg0.N) (k : Fin 512) (j : Fin 32) :
    (iblk m c 1 t : FVec Ideal S512x32 .f32) (ix2 k j) = V m c main_v4 (ix2 k j) := by
  obtain ⟨-, -, -, e0, e1, -⟩ := idx_facts t
  unfold iblk
  rw [View.read_apply]
  show V m c main_v4 (((cfg0.win 1).blk t).view.emb (ix2 k j)) = _
  refine congrArg (V m c main_v4) (funext fun a => Fin.ext ?_)
  match a with
  | ⟨0, _⟩ => show win0_1.index t (0 : Fin 2) * 512 + 1 * k.val = k.val; omega
  | ⟨1, _⟩ => show win0_1.index t (1 : Fin 2) * 32 + 1 * j.val = j.val; omega

/-- The first bias row's block is the whole row. -/
theorem b1_apply (c : Dev nD) (t : Fin cfg0.N) (j : Fin 32) :
    (iblk m c 2 t : FVec Ideal S1x32 .f32) (ix2 (0 : Fin 1) j) = V m c main_v6 (ix2 (0 : Fin 1) j) := by
  obtain ⟨-, -, -, -, -, e0, e1, -⟩ := idx_facts t
  unfold iblk
  rw [View.read_apply]
  show V m c main_v6 (((cfg0.win 2).blk t).view.emb (ix2 (0 : Fin 1) j)) = _
  refine congrArg (V m c main_v6) (funext fun a => Fin.ext ?_)
  match a with
  | ⟨0, _⟩ => show win0_2.index t (0 : Fin 2) * 1 + 1 * 0 = 0; omega
  | ⟨1, _⟩ => show win0_2.index t (1 : Fin 2) * 32 + 1 * j.val = j.val; omega

/-- The second layer's (transposed) weight block is the whole array. -/
theorem w2_apply (c : Dev nD) (t : Fin cfg0.N) (j : Fin 32) (k : Fin 512) :
    (iblk m c 3 t : FVec Ideal S32x512 .f32) (ix2 j k) = V m c main_v5 (ix2 j k) := by
  obtain ⟨-, -, -, -, -, -, -, e0, e1, -⟩ := idx_facts t
  unfold iblk
  rw [View.read_apply]
  show V m c main_v5 (((cfg0.win 3).blk t).view.emb (ix2 j k)) = _
  refine congrArg (V m c main_v5) (funext fun a => Fin.ext ?_)
  match a with
  | ⟨0, _⟩ => show win0_3.index t (0 : Fin 2) * 32 + 1 * j.val = j.val; omega
  | ⟨1, _⟩ => show win0_3.index t (1 : Fin 2) * 512 + 1 * k.val = k.val; omega

/-- The second bias row's block is the whole row. -/
theorem b2_apply (c : Dev nD) (t : Fin cfg0.N) (k : Fin 512) :
    (iblk m c 4 t : FVec Ideal S1x512 .f32) (ix2 (0 : Fin 1) k) = V m c main_v7 (ix2 (0 : Fin 1) k) := by
  obtain ⟨-, -, -, -, -, -, -, -, -, e0, e1, -⟩ := idx_facts t
  unfold iblk
  rw [View.read_apply]
  show V m c main_v7 (((cfg0.win 4).blk t).view.emb (ix2 (0 : Fin 1) k)) = _
  refine congrArg (V m c main_v7) (funext fun a => Fin.ext ?_)
  match a with
  | ⟨0, _⟩ => show win0_4.index t (0 : Fin 2) * 1 + 1 * 0 = 0; omega
  | ⟨1, _⟩ => show win0_4.index t (1 : Fin 2) * 512 + 1 * k.val = k.val; omega

/-- What an odd step finds in the running sum: the even step before it left the zero block plus its half tile's sum. -/
theorem carried (c : Dev nD) (t : Fin cfg0.N) (h1 : t.val % 2 = 1) (hlt : t.val - 1 < cfg0.N) :
    (outsAt0 m c (t.val - 1) hlt).2 = k0_pay2 (F := Ideal) (k0_pay1 (F := Ideal)) (iblk m c 0 ⟨t.val - 1, hlt⟩) := by
  have e := outsAt0_A m c ⟨t.val - 1, hlt⟩ (by show (t.val - 1) % 2 = 0; omega) (by show ¬(t.val - 1) % 2 = 1; omega)
  refine (congrArg Prod.snd e).trans ?_
  dsimp only
  rw [Cert.ReferenceIdeal.Body.sum_first]

/-- WHAT AN ODD STEP t WRITES BACK is block t of the gate array. -/
theorem flushed_eq (c : Dev nD) (t : Fin cfg0.N) (hf : (cfg0.win 5).flush t = true) :
    (dats m 0 c).flushed 5 t = ((cfg0.win 5).blk t).view.read (Elt Ideal) (gates m c) := by
  have h1 : t.val % 2 = 1 := (flush0_5 t).mp hf
  have h0 : ¬t.val % 2 = 0 := by omega
  have hN : cfg0.N = 16 := N_0
  have ht : t.val < 16 := lt_of_lt_of_eq t.isLt hN
  have hlt : t.val - 1 < cfg0.N := Nat.lt_of_le_of_lt (Nat.sub_le _ _) t.isLt
  show (cfg0.win 5).cut (grid0.coords t) ((dats m 0 c).after 5 t) = _
  rw [after0_5, outsAt0_B m c t h0 h1]
  dsimp only
  rw [Cert.ReferenceIdeal.Body.out_second, carried m c t h1 hlt]
  obtain ⟨-, -, -, -, -, -, -, -, -, -, -, e0, e1⟩ := idx_facts t
  funext y
  obtain ⟨r, cc, rfl⟩ : ∃ (r : Fin 8) (cc : Fin 512), y = ix2 r cc := ⟨y 0, y 1, eq_ix2 y⟩
  have hr : r.val < 8 := r.isLt
  have he : ((cfg0.win 5).blk t).view.emb (ix2 r cc) = ix2 (⟨8 * (t.val / 2) + r.val, by omega⟩ : Fin 64) cc := by
    funext a; apply Fin.ext
    match a with
    | ⟨0, _⟩ => show win0_5.index t (0 : Fin 2) * 8 + 1 * r.val = 8 * (t.val / 2) + r.val; omega
    | ⟨1, _⟩ => show win0_5.index t (1 : Fin 2) * 512 + 1 * cc.val = cc.val; omega
  rw [View.read_apply]
  show k0_pay3 (F := Ideal) (k0_pay2 (F := Ideal) (k0_pay2 (F := Ideal) (k0_pay1 (F := Ideal)) (iblk m c 0 ⟨t.val - 1, hlt⟩)) (iblk m c 0 t)) (iblk m c 1 t) (iblk m c 2 t) (iblk m c 3 t) (iblk m c 4 t) (ix2 r cc)
    = gates m c (((cfg0.win 5).blk t).view.emb (ix2 r cc))
  rw [he]
  exact Cert.ReferenceIdeal.GateValue.step_value (iblk m c 0 ⟨t.val - 1, hlt⟩) (iblk m c 0 t) (iblk m c 1 t) (iblk m c 2 t) (iblk m c 3 t) (iblk m c 4 t)
    (V m c main_v1) (V m c main_v4) (V m c main_v6) (V m c main_v5) (V m c main_v7) ⟨8 * (t.val / 2) + r.val, by omega⟩ r cc
    (fun p k => tile_apply m c ⟨t.val - 1, hlt⟩ r p k _ _ (by show 8 * (t.val / 2) + r.val = 8 * ((t.val - 1) / 2) + r.val; omega)
      (by show p.val = 512 * ((t.val - 1) % 2) + p.val; omega))
    (fun p k => tile_apply m c t r p k _ _ rfl (by show 512 + p.val = 512 * (t.val % 2) + p.val; omega))
    (fun k j => ws_apply m c t k j) (fun j => b1_apply m c t j)
    (fun j k => w2_apply m c t j k) (fun k => b2_apply m c t k)

/-- An index of the gate array is in step t's block iff its coordinates are in the block's ranges. -/
theorem mem_blk (t : Fin cfg0.N) (i : S64x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v8).slice (win0_5.rect t)).set ↔ _
  rw [View.set_slice_whole, Rect.mem_set_unit]
  exact Iff.rfl

/-- THE GATE ARRAY after the region: row n was written by the odd step 2(n / 8) + 1. -/
theorem final (c : Dev nD) : (dats m 0 c).arrAt 5 cfg0.N = gates m c :=
  (dats m 0 c).arrAt_eq_of_cover 5 (gates m c) (fun t hf => flushed_eq m c t hf) fun i => by
    have hN : cfg0.N = 16 := N_0
    have hi0 : (i 0).val < 64 := (i 0).isLt
    have hi1 : (i 1).val < 512 := (i 1).isLt
    refine ⟨⟨2 * ((i 0).val / 8) + 1, by rw [hN]; omega⟩, (flush0_5 _).mpr (by show (2 * ((i 0).val / 8) + 1) % 2 = 1; omega), ?_⟩
    rw [mem_blk]
    obtain ⟨-, -, -, -, -, -, -, -, -, -, -, e0, e1⟩ := idx_facts ⟨2 * ((i 0).val / 8) + 1, by rw [hN]; omega⟩
    intro a
    match a with
    | ⟨0, _⟩ =>
      show win0_5.index ⟨2 * ((i 0).val / 8) + 1, _⟩ (0 : Fin 2) * 8 ≤ (i 0).val ∧ (i 0).val < win0_5.index ⟨2 * ((i 0).val / 8) + 1, _⟩ (0 : Fin 2) * 8 + 8
      rw [e0]; show (2 * ((i 0).val / 8) + 1) / 2 * 8 ≤ (i 0).val ∧ (i 0).val < (2 * ((i 0).val / 8) + 1) / 2 * 8 + 8; omega
    | ⟨1, _⟩ =>
      show win0_5.index ⟨2 * ((i 0).val / 8) + 1, _⟩ (1 : Fin 2) * 512 ≤ (i 1).val ∧ (i 1).val < win0_5.index ⟨2 * ((i 0).val / 8) + 1, _⟩ (1 : Fin 2) * 512 + 512
      rw [e1]; omega

end Cert.ReferenceIdeal.GateArray

end
-- ==== Proof.RefRun.lean ====
/-
  The reference program's run, read: its result as a function of its arguments.

  Before the call the program re-lays the input channels-last (a transpose then a reshape to [64, 1024, 512]), transposes
  the first layer's weights and divides them by 1024.0, transposes the second layer's weights and turns the two bias
  vectors into rows; after it, it reshapes the gate array to [64, 512, 1, 1]. So the result is that reshape of the batch's
  gates through the two half sums and the scaled weights, of the re-laid arguments.
-/
import proofs.«116428_g2000103900817249_pallaspilot1_116_34_alg».proof.Proof.RefArray

noncomputable section

open Idealize.ShloMosaic Idealize.ShloMosaic.TcCoe Idealize.SL.Sem
open Idealize.ShloMosaic.Pipeline (Dat)

namespace Cert.ReferenceIdeal.GateRun

open Cert.ReferenceIdeal Cert.ReferenceIdeal.Gen Idealize.ShloMosaic.ValueIdx

/-- The result array as a function of the five argument arrays. -/
def result [Facts] (a0 : S64x512x32x32.Idx → EReal) (a1 : S32x512.Idx → EReal) (a2 : S32.Idx → EReal)
    (a3 : S512x32.Idx → EReal) (a4 : S512.Idx → EReal) : S64x512x1x1.Idx → EReal :=
  shapeCast S64x512x1x1
    (Cert.Gate.gateScaled
      (shapeCast S64x1024x512 (transpose S64x32x32x512 [0, 2, 3, 1] a0 transposes_S64x512x32x32_S64x32x32x512_0_2_3_1)
        shapeCasts_S64x32x32x512_S64x1024x512)
      (Host.divf (F := Ideal) (transpose S512x32 [1, 0] a1 transposes_S32x512_S512x32_1_0)
        (broadcastInDim S512x32 ![] bcast_S_S512x32 (constant (F := Ideal) S_ .f32 0x44800000#32)))
      (shapeCast S1x32 a2 shapeCasts_S32_S1x32) (transpose S32x512 [1, 0] a3 transposes_S512x32_S32x512_1_0)
      (shapeCast S1x512 a4 shapeCasts_S512_S1x512))
    shapeCasts_S64x512_S64x512x1x1

variable (m : (ℓ : Loc nD τ sig) → Buf (Elt Ideal) ℓ) (ρ : Dev nD → PrngReg)

/-- The region finds the input re-laid channels-last, -/
theorem V_input (c : Dev nD) : (V m c main_v1 : S64x1024x512.Idx → EReal)
    = shapeCast S64x1024x512 (transpose S64x32x32x512 [0, 2, 3, 1] (m ((c : Thread nD τ).loc main_arg0))
        transposes_S64x512x32x32_S64x32x32x512_0_2_3_1) shapeCasts_S64x32x32x512_S64x1024x512 := by
  show StableHlo.after hostOps0 (fun b => m (c, b)) (Proc.devRef .tc main_v1) = _
  after_results
  all_goals rfl

/-- … the first layer's weights transposed and divided by 1024.0, -/
theorem V_ws (c : Dev nD) : (V m c main_v4 : S512x32.Idx → EReal)
    = Host.divf (F := Ideal) (transpose S512x32 [1, 0] (m ((c : Thread nD τ).loc main_arg1)) transposes_S32x512_S512x32_1_0)
        (broadcastInDim S512x32 ![] bcast_S_S512x32 (constant (F := Ideal) S_ .f32 0x44800000#32)) := by
  show StableHlo.after hostOps0 (fun b => m (c, b)) (Proc.devRef .tc main_v4) = _
  after_results
  all_goals rfl

/-- … the first bias as a row, -/
theorem V_b1 (c : Dev nD) : (V m c main_v6 : S1x32.Idx → EReal)
    = shapeCast S1x32 (m ((c : Thread nD τ).loc main_arg2)) shapeCasts_S32_S1x32 := by
  show StableHlo.after hostOps0 (fun b => m (c, b)) (Proc.devRef .tc main_v6) = _
  after_results
  all_goals rfl

/-- … the second layer's weights transposed, -/
theorem V_w2 (c : Dev nD) : (V m c main_v5 : S32x512.Idx → EReal)
    = transpose S32x512 [1, 0] (m ((c : Thread nD τ).loc main_arg3)) transposes_S512x32_S32x512_1_0 := by
  show StableHlo.after hostOps0 (fun b => m (c, b)) (Proc.devRef .tc main_v5) = _
  after_results
  all_goals rfl

/-- … and the second bias as a row. -/
theorem V_b2 (c : Dev nD) : (V m c main_v7 : S1x512.Idx → EReal)
    = shapeCast S1x512 (m ((c : Thread nD τ).loc main_arg4)) shapeCasts_S512_S1x512 := by
  show StableHlo.after hostOps0 (fun b => m (c, b)) (Proc.devRef .tc main_v7) = _
  after_results
  all_goals rfl

/-- The line after the call, read: the result is the gate array reshaped to [64, 512, 1, 1]. -/
theorem tail_eq (c : Dev nD) :
    Pipeline.afterTail₀ cfgs (dats m) 0 (V0 m) [hostOps1] c main_v9
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v9) = _
  after_results
  unfold result
  refine congrArg (fun g => shapeCast S64x512x1x1 g shapeCasts_S64x512_S64x512x1x1) ?_
  refine ((Pipeline.withArrays_arr spec0 launch0.win.arr_inj c _ _ 5).trans (Cert.ReferenceIdeal.GateArray.final m c)).trans ?_
  show Cert.Gate.gateScaled (V m c main_v1) (V m c main_v4) (V m c main_v6) (V m c main_v5) (V m c main_v7) = _
  rw [V_input, V_ws, V_b1, V_w2, V_b2]

/-- THE RUN: every weakly fair execution terminates with the result at `result` of the arguments, the arguments unchanged. -/
theorem run : θ_run defs (onTc (τ := τ) (main (F := Ideal))) ⟨m, fun _ => 0, ρ⟩ (fun r => ∀ c : Dev nD,
      r.2.mem ((c.tc : Thread nD τ).loc main_v9)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v9 (Pipeline.mem_restRefs_of main_v9 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.ReferenceIdeal.GateRun

end
-- ==== Proof.lean ====
/-
  A squeeze-and-excitation gate, computed two ways.

  Both programs pool a [64, 512, 32, 32] input over its 1024 spatial positions and pass the pooled vector of each image
  through Linear(512 → 32), a rectifier, Linear(32 → 512) and a logistic, giving a [64, 512, 1, 1] gate.

  * The kernel sums each image's 1024 positions in one grid step per tile of 8 images, multiplies the sum by the
    constant 2⁻¹⁰ (the mean), and contracts it with the first layer's weights in their native [32, 512] layout.
  * The reference sums the positions in two grid steps of 512 positions per tile, carrying the running sum between them,
    and contracts the SUM with weights it transposed and divided by 1024.0 beforehand.

  On the extended reals these are one function of the arguments, with nothing assumed of the entries: 2⁻¹⁰ is exactly
  1/1024, dividing by the real 1024 is multiplying by 1/1024, a sum over 1024 positions is the sum of its halves, and
  the rest is associativity and commutativity of the product (Proof/Gate.lean). The final layouts — a broadcast along
  axes (0, 1) into two new unit axes, and a reshape — agree as well.

  Each program's result is read off its run: what a grid step leaves in its output block (Proof/KernelBody.lean,
  Proof/RefBody.lean), that arithmetic at an index (Proof/KernelGate.lean, Proof/RefGate.lean), the blocks assembled
  into the gate array (Proof/KernelArray.lean, Proof/RefArray.lean), and the lines of the program around the call
  (Proof/KernelRun.lean, Proof/RefRun.lean). No rewrite was applied in idealizing the kernel, so `preserves` is trivial.
-/
import proofs.«116428_g2000103900817249_pallaspilot1_116_34_alg».proof.Defs
import proofs.«116428_g2000103900817249_pallaspilot1_116_34_alg».proof.Proof.Gen.Kernel
import proofs.«116428_g2000103900817249_pallaspilot1_116_34_alg».proof.Proof.Gen.Kernel.Skeleton
import proofs.«116428_g2000103900817249_pallaspilot1_116_34_alg».proof.Proof.Gen.Kernel.Launch
import proofs.«116428_g2000103900817249_pallaspilot1_116_34_alg».proof.Proof.Gen.Kernel.Points
import proofs.«116428_g2000103900817249_pallaspilot1_116_34_alg».proof.Proof.Gen.Kernel.Frame
import proofs.«116428_g2000103900817249_pallaspilot1_116_34_alg».proof.Proof.Gen.KernelIdeal
import proofs.«116428_g2000103900817249_pallaspilot1_116_34_alg».proof.Proof.Gen.KernelIdeal.Skeleton
import proofs.«116428_g2000103900817249_pallaspilot1_116_34_alg».proof.Proof.Gen.KernelIdeal.Launch
import proofs.«116428_g2000103900817249_pallaspilot1_116_34_alg».proof.Proof.Gen.KernelIdeal.Points
import proofs.«116428_g2000103900817249_pallaspilot1_116_34_alg».proof.Proof.Gen.KernelIdeal.Frame
import proofs.«116428_g2000103900817249_pallaspilot1_116_34_alg».proof.Proof.Gen.ReferenceIdeal
import proofs.«116428_g2000103900817249_pallaspilot1_116_34_alg».proof.Proof.Gen.ReferenceIdeal.Skeleton
import proofs.«116428_g2000103900817249_pallaspilot1_116_34_alg».proof.Proof.Gen.ReferenceIdeal.Launch
import proofs.«116428_g2000103900817249_pallaspilot1_116_34_alg».proof.Proof.Gen.ReferenceIdeal.Points
import proofs.«116428_g2000103900817249_pallaspilot1_116_34_alg».proof.Proof.Gen.ReferenceIdeal.Frame
import proofs.«116428_g2000103900817249_pallaspilot1_116_34_alg».proof.Proof.Gen.Pre_finite_inputs
import proofs.«116428_g2000103900817249_pallaspilot1_116_34_alg».proof.Proof.KernelRun
import proofs.«116428_g2000103900817249_pallaspilot1_116_34_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' results are one function of the five arguments: the two layouts of the gate array agree, and the
    gate through the mean is the gate through the half sums and the weights divided by 1024.0 — the reference's scaled
    weights at (k, j) are the weights at (j, k) over 1024.0. -/
theorem result_eq (a0 : Cert.KernelIdeal.S64x512x32x32.Idx → EReal) (a1 : Cert.KernelIdeal.S32x512.Idx → EReal)
    (a2 : Cert.KernelIdeal.S32.Idx → EReal) (a3 : Cert.KernelIdeal.S512x32.Idx → EReal)
    (a4 : Cert.KernelIdeal.S512.Idx → EReal) :
    Cert.ReferenceIdeal.GateRun.result a0 a1 a2 a3 a4 = Cert.KernelIdeal.GateRun.result a0 a1 a2 a3 a4 := by
  unfold Cert.ReferenceIdeal.GateRun.result Cert.KernelIdeal.GateRun.result
  refine Eq.trans ?_ (Cert.Gate.unit_axes_eq _ Cert.KernelIdeal.Gen.bcast_S64x512_S64x512x1x1_0_1
    Cert.ReferenceIdeal.Gen.shapeCasts_S64x512_S64x512x1x1).symm
  refine congrArg (fun g => shapeCast Cert.ReferenceIdeal.S64x512x1x1 g Cert.ReferenceIdeal.Gen.shapeCasts_S64x512_S64x512x1x1) ?_
  refine (Cert.Gate.gateMean_eq_gateScaled _ _ _ _ _ _ fun k j => ?_).symm
  show Ideal.div (transpose Cert.ReferenceIdeal.S512x32 [1, 0] a1 _ (ix2 k j)) (Ideal.ofBits .f32 0x44800000#32) = _
  rw [transpose_ix2_apply]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

theorem preserves : Cert.preserves_Kernel_KernelIdeal := trivial

/-- Both idealized programs run; the kernel's result is `result` of its arguments, the reference's its own `result`
    of arguments that agree: one function (`result_eq`). -/
theorem algebraic : Cert.algebraic_KernelIdeal_ReferenceIdeal := by
  intro m ρ m' ρ' _ hagree
  refine ⟨fun c => Cert.KernelIdeal.GateRun.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.GateRun.run m ρ, ?_⟩
  refine (θ_run Cert.ReferenceIdeal.defs _ _).mono (fun _ h c => ⟨(h c).1.trans ?_, (h c).2⟩)
    (Cert.ReferenceIdeal.GateRun.run m' ρ')
  rw [(hagree c).1, (hagree c).2.1, (hagree c).2.2.1, (hagree c).2.2.2.1, (hagree c).2.2.2.2]
  exact result_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
